-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x262144 : Shape := ⟨2, ![2, 262144]⟩
abbrev S262144 : Shape := ⟨1, ![262144]⟩
abbrev S1000x128 : Shape := ⟨2, ![1000, 128]⟩
abbrev S50000x128 : Shape := ⟨2, ![50000, 128]⟩
abbrev S50000 : Shape := ⟨1, ![50000]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S50000x128 : S_.BroadcastsInDim S50000x128 (![] : Fin 0 → Fin S50000x128.rank)
  reducesTo_S50000x128_S_d0_1 : S50000x128.ReducesTo [0, 1] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg7 : FVec F S50000 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S50000 .f32 := Host.absf main_arg7
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  main_v23

def fn {F : FTy → Type} [FloatOps F] (main_arg0 : FVec F S4096x128 .f32) (main_arg1 : IVec S2x262144 32) (main_arg2 : IVec S262144 32) (main_arg3 : IVec S262144 32) (main_arg4 : FVec F S1000x128 .f32) (main_arg5 : FVec F S50000x128 .f32) (main_arg6 : FVec F S50000 .f32) (main_arg7 : FVec F S50000 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S1000x128 .f32 := Host.absf main_arg4
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S50000x128 .f32 := Host.absf main_arg5
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000 .f32 := Host.absf main_arg6
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg7 main_v13 main_v16
-- ==== Kernel.lean ====
abbrev S4096x128 : Shape := ⟨2, ![4096, 128]⟩
abbrev S2x262144 : Shape := ⟨2, ![2, 262144]⟩
abbrev S262144 : Shape := ⟨1, ![262144]⟩
abbrev S1000x128 : Shape := ⟨2, ![1000, 128]⟩
abbrev S50000x128 : Shape := ⟨2, ![50000, 128]⟩
abbrev S50000 : Shape := ⟨1, ![50000]⟩
abbrev S1x262144 : Shape := ⟨2, ![1, 262144]⟩
abbrev S_ : Shape := ⟨0, ![]⟩
abbrev S262144x1 : Shape := ⟨2, ![262144, 1]⟩
abbrev S262144x128 : Shape := ⟨2, ![262144, 128]⟩
abbrev S53248x128 : Shape := ⟨2, ![53248, 128]⟩
abbrev S53248 : Shape := ⟨1, ![53248]⟩
abbrev S1x53248 : Shape := ⟨2, ![1, 53248]⟩
abbrev S512x128 : Shape := ⟨2, ![512, 128]⟩
abbrev S1x4096 : Shape := ⟨2, ![1, 4096]⟩
abbrev S512x4096 : Shape := ⟨2, ![512, 4096]⟩

abbrev nBuf : Space → Nat
  | .hbm => 61
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S2x262144, .i32⟩
  | .hbm, ⟨2, _⟩ => ⟨S262144, .i32⟩
  | .hbm, ⟨3, _⟩ => ⟨S262144, .i32⟩
  | .hbm, ⟨4, _⟩ => ⟨S1000x128, .f32⟩
  | .hbm, ⟨5, _⟩ => ⟨S50000x128, .f32⟩
  | .hbm, ⟨6, _⟩ => ⟨S50000, .f32⟩
  | .hbm, ⟨7, _⟩ => ⟨S50000, .f32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S262144, .f32⟩
  | .hbm, ⟨13, _⟩ => ⟨S_, .f32⟩
  | .hbm, ⟨14, _⟩ => ⟨S262144, .f32⟩
  | .hbm, ⟨15, _⟩ => ⟨S262144, .f32⟩
  | .hbm, ⟨16, _⟩ => ⟨S_, .f32⟩
  | .hbm, ⟨17, _⟩ => ⟨S262144, .f32⟩
  | .hbm, ⟨18, _⟩ => ⟨S262144, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x128, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144x128, .f32⟩
  | .hbm, ⟨37, _⟩ => ⟨S262144x128, .f32⟩
  | .hbm, ⟨38, _⟩ => ⟨S262144x1, .f32⟩
  | .hbm, ⟨39, _⟩ => ⟨S262144x128, .f32⟩
  | .hbm, ⟨40, _⟩ => ⟨S262144x128, .f32⟩
  | .hbm, ⟨41, _⟩ => ⟨S_, .f32⟩
  | .hbm, ⟨42, _⟩ => ⟨S4096x128, .f32⟩
  | .hbm, ⟨43, _⟩ => ⟨S262144x1, .i32⟩
  | .hbm, ⟨44, _⟩ => ⟨S4096x128, .f32⟩
  | .hbm, ⟨45, _⟩ => ⟨S_, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S_, .i32⟩
  | .hbm, ⟨50, _⟩ => ⟨S_, .f32⟩
  | .hbm, ⟨51, _⟩ => ⟨S53248x128, .f32⟩
  | .hbm, ⟨52, _⟩ => ⟨S_, .i32⟩
  | .hbm, ⟨53, _⟩ => ⟨S_, .f32⟩
  | .hbm, ⟨54, _⟩ => ⟨S53248, .f32⟩
  | .hbm, ⟨55, _⟩ => ⟨S1x53248, .f32⟩
  | .hbm, ⟨56, _⟩ => ⟨S_, .i32⟩
  | .hbm, ⟨57, _⟩ => ⟨S_, .f32⟩
  | .hbm, ⟨58, _⟩ => ⟨S53248, .f32⟩
  | .hbm, ⟨59, _⟩ => ⟨S1x53248, .f32⟩
  | .hbm, ⟨60, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_call0_v0 : Ref sig .tc := ⟨.hbm, 50, rfl⟩
abbrev main_v33 : Ref sig .tc := ⟨.hbm, 51, rfl⟩
abbrev main_c_7 : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_call2_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 13], ![false, false]⟩

def k0_cond2 (i : grid0.Coords) : BitVec 1 :=
  let arg1 : BitVec 32 := BitVec.ofNat 32 (i 1).val
  let c12_i32 : BitVec 32 := 12#32
  let v27 : BitVec 1 := Scalar.cmpi .eq arg1 c12_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S_S4096x128 : S_.BroadcastsInDim S4096x128 (![] : Fin 0 → Fin S4096x128.rank)
  pads_S50000x128_S53248x128_032480_000 : S50000x128.Pads (![0, 0] : Fin 2 → Nat) ![3248, 0] ![0, 0] S53248x128
  h_S_ : 0 < S_.numel
  pads_S50000_S53248_032480 : S50000.Pads (![0] : Fin 1 → Nat) ![3248] ![0] S53248
  shapeCasts_S53248_S1x53248 : S53248.ShapeCasts S1x53248
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  gather_S4096x128_S262144x1_S262144x128_1_0_n_n_0_1_1128_wf : GatherDims.WF S4096x128 S262144x1 S262144x128 [1] [0] [] [0] [] 1 ![1, 128]
  gather_S1000x128_S262144x1_S262144x128_1_0_n_n_0_1_1128_wf : GatherDims.WF S1000x128 S262144x1 S262144x128 [1] [0] [] [0] [] 1 ![1, 128]
  scatter_S4096x128_S262144x1_S262144x128_1_0_0_1_wf : ScatterDims.WF S4096x128 S262144x1 S262144x128 [1] [0] [0] 1
  dot_S512x128_S4096x128_S512x4096_1_1_0_0_n_n_wf : DotDims.WF S512x128 S4096x128 S512x4096 [1] [1] [0] [0] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S53248x128.size a
  hwx0_1 : ∀ i : grid0.Coords, EltTy.bits .f32 = 32 ∨ (Rect.block (s := S53248x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x53248.size a
  hwx0_2 : ∀ i : grid0.Coords, EltTy.bits .f32 = 32 ∨ (Rect.block (s := S1x53248) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x53248.size a
  hwx0_3 : ∀ i : grid0.Coords, EltTy.bits .f32 = 32 ∨ (Rect.block (s := S1x53248) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def gather_S4096x128_S262144x1_S262144x128_1_0_n_n_0_1_1128 : GatherDims S4096x128 S262144x1 S262144x128 where
  offsetDims := [1]
  collapsedSliceDims := [0]
  operandBatchingDims := []
  startIndicesBatchingDims := []
  startIndexMap := [0]
  indexVectorDim := 1
  sliceSizes := ![1, 128]
  wf := gather_S4096x128_S262144x1_S262144x128_1_0_n_n_0_1_1128_wf
def gather_S1000x128_S262144x1_S262144x128_1_0_n_n_0_1_1128 : GatherDims S1000x128 S262144x1 S262144x128 where
  offsetDims := [1]
  collapsedSliceDims := [0]
  operandBatchingDims := []
  startIndicesBatchingDims := []
  startIndexMap := [0]
  indexVectorDim := 1
  sliceSizes := ![1, 128]
  wf := gather_S1000x128_S262144x1_S262144x128_1_0_n_n_0_1_1128_wf
def scatter_S4096x128_S262144x1_S262144x128_1_0_0_1 : ScatterDims S4096x128 S262144x1 S262144x128 where
  updateWindowDims := [1]
  insertedWindowDims := [0]
  scatterDimsToOperandDims := [0]
  indexVectorDim := 1
  wf := scatter_S4096x128_S262144x1_S262144x128_1_0_0_1_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v32) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S2x262144 : Shape := ⟨2, ![2, 262144]⟩
abbrev S262144 : Shape := ⟨1, ![262144]⟩
abbrev S1000x128 : Shape := ⟨2, ![1000, 128]⟩
abbrev S50000x128 : Shape := ⟨2, ![50000, 128]⟩
abbrev S50000 : Shape := ⟨1, ![50000]⟩
abbrev S1x262144 : Shape := ⟨2, ![1, 262144]⟩
abbrev S_ : Shape := ⟨0, ![]⟩
abbrev S262144x1 : Shape := ⟨2, ![262144, 1]⟩
abbrev S262144x128 : Shape := ⟨2, ![262144, 128]⟩
abbrev S128x50000 : Shape := ⟨2, ![128, 50000]⟩
abbrev S4096x50000 : Shape := ⟨2, ![4096, 50000]⟩
abbrev S1x50000 : Shape := ⟨2, ![1, 50000]⟩

abbrev nBuf : Space → Nat
  | .hbm => 61
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2x262144, .i32⟩
  | .hbm, ⟨2, _⟩ => ⟨S262144, .i32⟩
  | .hbm, ⟨3, _⟩ => ⟨S262144, .i32⟩
  | .hbm, ⟨4, _⟩ => ⟨S1000x128, .f32⟩
  | .hbm, ⟨5, _⟩ => ⟨S50000x128, .f32⟩
  | .hbm, ⟨6, _⟩ => ⟨S50000, .f32⟩
  | .hbm, ⟨7, _⟩ => ⟨S50000, .f32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S262144, .f32⟩
  | .hbm, ⟨13, _⟩ => ⟨S_, .f32⟩
  | .hbm, ⟨14, _⟩ => ⟨S262144, .f32⟩
  | .hbm, ⟨15, _⟩ => ⟨S262144, .f32⟩
  | .hbm, ⟨16, _⟩ => ⟨S_, .f32⟩
  | .hbm, ⟨17, _⟩ => ⟨S262144, .f32⟩
  | .hbm, ⟨18, _⟩ => ⟨S262144, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x128, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144x128, .f32⟩
  | .hbm, ⟨37, _⟩ => ⟨S262144x128, .f32⟩
  | .hbm, ⟨38, _⟩ => ⟨S262144x1, .f32⟩
  | .hbm, ⟨39, _⟩ => ⟨S262144x128, .f32⟩
  | .hbm, ⟨40, _⟩ => ⟨S262144x128, .f32⟩
  | .hbm, ⟨41, _⟩ => ⟨S_, .f32⟩
  | .hbm, ⟨42, _⟩ => ⟨S4096x128, .f32⟩
  | .hbm, ⟨43, _⟩ => ⟨S262144x1, .i32⟩
  | .hbm, ⟨44, _⟩ => ⟨S4096x128, .f32⟩
  | .hbm, ⟨45, _⟩ => ⟨S_, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S128x50000, .f32⟩
  | .hbm, ⟨50, _⟩ => ⟨S4096x50000, .f32⟩
  | .hbm, ⟨51, _⟩ => ⟨S1x50000, .f32⟩
  | .hbm, ⟨52, _⟩ => ⟨S4096x50000, .f32⟩
  | .hbm, ⟨53, _⟩ => ⟨S4096x50000, .f32⟩
  | .hbm, ⟨54, _⟩ => ⟨S1x50000, .f32⟩
  | .hbm, ⟨55, _⟩ => ⟨S4096x50000, .f32⟩
  | .hbm, ⟨56, _⟩ => ⟨S4096x50000, .f32⟩
  | .hbm, ⟨57, _⟩ => ⟨S_, .f32⟩
  | .hbm, ⟨58, _⟩ => ⟨S4096x50000, .f32⟩
  | .hbm, ⟨59, _⟩ => ⟨S4096x50000, .f32⟩
  | .hbm, ⟨60, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_cst : Ref sig .tc := ⟨.hbm, 57, rfl⟩
abbrev main_call0_v0 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S_S4096x128 : S_.BroadcastsInDim S4096x128 (![] : Fin 0 → Fin S4096x128.rank)
  transposes_S50000x128_S128x50000_1_0 : S50000x128.Transposes [1, 0] S128x50000
  bcast_S50000_S1x50000_1 : S50000.BroadcastsInDim S1x50000 (![1] : Fin 1 → Fin S1x50000.rank)
  bcast_S1x50000_S4096x50000_0_1 : S1x50000.BroadcastsInDim S4096x50000 (![0, 1] : Fin 2 → Fin S4096x50000.rank)
  bcast_S_S4096x50000 : S_.BroadcastsInDim S4096x50000 (![] : Fin 0 → Fin S4096x50000.rank)
  gather_S4096x128_S262144x1_S262144x128_1_0_n_n_0_1_1128_wf : GatherDims.WF S4096x128 S262144x1 S262144x128 [1] [0] [] [0] [] 1 ![1, 128]
  gather_S1000x128_S262144x1_S262144x128_1_0_n_n_0_1_1128_wf : GatherDims.WF S1000x128 S262144x1 S262144x128 [1] [0] [] [0] [] 1 ![1, 128]
  scatter_S4096x128_S262144x1_S262144x128_1_0_0_1_wf : ScatterDims.WF S4096x128 S262144x1 S262144x128 [1] [0] [0] 1
  dot_S4096x128_S128x50000_S4096x50000_1_0_0_1_n_n_wf : DotDims.WF S4096x128 S128x50000 S4096x50000 [1] [0] [0] [1] [] []
  dot_S4096x50000_S50000x128_S4096x128_1_0_0_1_n_n_wf : DotDims.WF S4096x50000 S50000x128 S4096x128 [1] [0] [0] [1] [] []

variable [Facts₀]

def gather_S4096x128_S262144x1_S262144x128_1_0_n_n_0_1_1128 : GatherDims S4096x128 S262144x1 S262144x128 where
  offsetDims := [1]
  collapsedSliceDims := [0]
  operandBatchingDims := []
  startIndicesBatchingDims := []
  startIndexMap := [0]
  indexVectorDim := 1
  sliceSizes := ![1, 128]
  wf := gather_S4096x128_S262144x1_S262144x128_1_0_n_n_0_1_1128_wf
def gather_S1000x128_S262144x1_S262144x128_1_0_n_n_0_1_1128 : GatherDims S1000x128 S262144x1 S262144x128 where
  offsetDims := [1]
  collapsedSliceDims := [0]
  operandBatchingDims := []
  startIndicesBatchingDims := []
  startIndexMap := [0]
  indexVectorDim := 1
  sliceSizes := ![1, 128]
  wf := gather_S1000x128_S262144x1_S262144x128_1_0_n_n_0_1_1128_wf
def scatter_S4096x128_S262144x1_S262144x128_1_0_0_1 : ScatterDims S4096x128 S262144x1 S262144x128 where
  updateWindowDims := [1]
  insertedWindowDims := [0]
  scatterDimsToOperandDims := [0]
  indexVectorDim := 1
  wf := scatter_S4096x128_S262144x1_S262144x128_1_0_0_1_wf
def dot_S4096x128_S128x50000_S4096x50000_1_0_0_1_n_n : DotDims S4096x128 S128x50000 S4096x50000 where
  lhsContracting := [1]
  rhsContracting := [0]
  lhsNonContracting := [0]
  rhsNonContracting := [1]
  lhsBatch := []
  rhsBatch := []
  wf := dot_S4096x128_S128x50000_S4096x50000_1_0_0_1_n_n_wf
def dot_S4096x50000_S50000x128_S4096x128_1_0_0_1_n_n : DotDims S4096x50000 S50000x128 S4096x128 where
  lhsContracting := [1]
  rhsContracting := [0]
  lhsNonContracting := [0]
  rhsNonContracting := [1]
  lhsBatch := []
  rhsBatch := []
  wf := dot_S4096x50000_S50000x128_S4096x128_1_0_0_1_n_n_wf

class Facts : Prop extends Facts₀ where

variable [Facts]
-- ==== Proof.Spec.lean ====
/-
  The function both programs compute, as one formula on the extended reals, and the two facts about sums
  that join the kernel's arrangement of it to the reference's.

  For a matrix `a` of `N` rows, a table `e` of `V` rows (both of `D` columns) and two vectors `s`, `b` of
  length `V`, the result at row `n`, column `d` is

      out a e s b n d = ∑ v < V, max ((∑ k < D, a(n,k) · e(v,k)) · s(v) + b(v)) 0 · e(v,d).

  The reference computes this sum whole.  The kernel pads the table and the two vectors with zeros to a
  multiple `V'` of its tile length, and adds the tiles' partial sums one after another into an accumulator
  that starts at zero.  Two facts make the two equal, and neither needs the entries to be finite: a sum
  over `x < o + T` is the sum over `x < o` plus the sum over the next `T` terms (addition of extended reals
  is associative and commutative), and every padded term is a product with the table's padded entry `0`.
-/
import Idealize.ShloMosaic.PureOps.Ideal
import Idealize.ShloMosaic.Lib.ValueIdx

noncomputable section

namespace Cert.Spec

open Idealize.ShloMosaic Idealize.ShloMosaic.ValueIdx

variable {N V D : Nat}

/-- The activation at row `n` and table row `v`: the inner product of the two rows, scaled, shifted, and cut
    below at zero. -/
def act (a : (⟨2, ![N, D]⟩ : Shape).Idx → EReal) (e : (⟨2, ![V, D]⟩ : Shape).Idx → EReal) (s b : Fin V → EReal)
    (n : Fin N) (v : Fin V) : EReal :=
  max ((∑ k : Fin D, a (ix2 n k) * e (ix2 v k)) * s v + b v) 0

/-- Table row `v`'s contribution to the result at `(n, d)`. -/
def term (a : (⟨2, ![N, D]⟩ : Shape).Idx → EReal) (e : (⟨2, ![V, D]⟩ : Shape).Idx → EReal) (s b : Fin V → EReal)
    (n : Fin N) (d : Fin D) (v : Fin V) : EReal :=
  act a e s b n v * e (ix2 v d)

/-- The result at `(n, d)`: the sum of every table row's contribution. -/
def out (a : (⟨2, ![N, D]⟩ : Shape).Idx → EReal) (e : (⟨2, ![V, D]⟩ : Shape).Idx → EReal) (s b : Fin V → EReal)
    (n : Fin N) (d : Fin D) : EReal :=
  ∑ v : Fin V, term a e s b n d v

/-- The contribution of table row number `x`, a natural number; zero past the table's end. -/
def termN (a : (⟨2, ![N, D]⟩ : Shape).Idx → EReal) (e : (⟨2, ![V, D]⟩ : Shape).Idx → EReal) (s b : Fin V → EReal)
    (n : Fin N) (d : Fin D) (x : ℕ) : EReal :=
  if h : x < V then term a e s b n d ⟨x, h⟩ else 0

/-- The result is the sum of the first `V` numbered contributions. -/
theorem out_eq_sum_range (a : (⟨2, ![N, D]⟩ : Shape).Idx → EReal) (e : (⟨2, ![V, D]⟩ : Shape).Idx → EReal)
    (s b : Fin V → EReal) (n : Fin N) (d : Fin D) :
    out a e s b n d = ∑ x ∈ Finset.range V, termN a e s b n d x := by
  unfold out
  rw [Finset.sum_range]
  exact Finset.sum_congr rfl fun v _ => by unfold termN; rw [dif_pos v.isLt]

/-- ONE TILE.  If `a0` is the `P` rows of `a` from row `r` on, and `e0`, `s0`, `b0` are the `T` entries of `e`,
    `s`, `b` from entry `o` on, the result computed from the pieces at `(p, d)` is the sum of the `T` numbered
    contributions from number `o` on, to row `r + p`. -/
theorem out_block {P T : Nat} (a : (⟨2, ![N, D]⟩ : Shape).Idx → EReal) (e : (⟨2, ![V, D]⟩ : Shape).Idx → EReal)
    (s b : Fin V → EReal) (a0 : (⟨2, ![P, D]⟩ : Shape).Idx → EReal) (e0 : (⟨2, ![T, D]⟩ : Shape).Idx → EReal)
    (s0 b0 : Fin T → EReal) (r o : ℕ) (hr : r + P ≤ N) (ho : o + T ≤ V)
    (ha : ∀ (p : Fin P) (k : Fin D), a0 (ix2 p k) = a (ix2 ⟨r + p.val, by have := p.isLt; omega⟩ k))
    (he : ∀ (u : Fin T) (k : Fin D), e0 (ix2 u k) = e (ix2 ⟨o + u.val, by have := u.isLt; omega⟩ k))
    (hs : ∀ u : Fin T, s0 u = s ⟨o + u.val, by have := u.isLt; omega⟩)
    (hb : ∀ u : Fin T, b0 u = b ⟨o + u.val, by have := u.isLt; omega⟩)
    (p : Fin P) (d : Fin D) :
    out a0 e0 s0 b0 p d
      = ∑ x ∈ Finset.range T, termN a e s b ⟨r + p.val, by have := p.isLt; omega⟩ d (o + x) := by
  unfold out
  rw [Finset.sum_range]
  refine Finset.sum_congr rfl fun u _ => ?_
  have hu : o + u.val < V := by have := u.isLt; omega
  unfold termN
  rw [dif_pos hu]
  unfold term act
  rw [he u d, hs u, hb u]
  simp only [ha, he]

/-- PADDING.  If `e'`, `s'`, `b'` are `e`, `s`, `b` followed by zeros up to length `V'`, the first `V'` numbered
    contributions computed from the padded data sum to the result computed from the data: the first `V`
    contributions are the same, and each later one is a product with a zero entry of the table. -/
theorem sum_padded {V' : Nat} (hV : V ≤ V') (a : (⟨2, ![N, D]⟩ : Shape).Idx → EReal)
    (e : (⟨2, ![V, D]⟩ : Shape).Idx → EReal) (s b : Fin V → EReal)
    (e' : (⟨2, ![V', D]⟩ : Shape).Idx → EReal) (s' b' : Fin V' → EReal)
    (he : ∀ (v : Fin V') (k : Fin D), e' (ix2 v k) = if h : v.val < V then e (ix2 ⟨v.val, h⟩ k) else 0)
    (hs : ∀ v : Fin V', s' v = if h : v.val < V then s ⟨v.val, h⟩ else 0)
    (hb : ∀ v : Fin V', b' v = if h : v.val < V then b ⟨v.val, h⟩ else 0)
    (n : Fin N) (d : Fin D) :
    ∑ x ∈ Finset.range V', termN a e' s' b' n d x = out a e s b n d := by
  obtain ⟨P, rfl⟩ : ∃ P, V' = V + P := ⟨V' - V, by omega⟩
  rw [Finset.sum_range_add, out_eq_sum_range]
  have hz : ∑ x ∈ Finset.range P, termN a e' s' b' n d (V + x) = 0 :=
    Finset.sum_eq_zero fun x hx => by
      have hx' : V + x < V + P := by have := Finset.mem_range.mp hx; omega
      unfold termN
      rw [dif_pos hx']
      unfold term
      rw [he ⟨V + x, hx'⟩ d, dif_neg (by show ¬ V + x < V; omega), mul_zero]
  rw [hz, add_zero]
  refine Finset.sum_congr rfl fun x hx => ?_
  have hx1 : x < V := Finset.mem_range.mp hx
  have hx2 : x < V + P := by omega
  unfold termN
  rw [dif_pos hx1, dif_pos hx2]
  unfold term act
  rw [he ⟨x, hx2⟩ d, hs ⟨x, hx2⟩, hb ⟨x, hx2⟩, dif_pos hx1, dif_pos hx1, dif_pos hx1]
  simp only [he, dif_pos hx1]

end Cert.Spec

end
-- ==== Proof.Payload.lean ====
/-
  What one grid point adds to the accumulator, read at an entry, on the extended reals.

  At a grid point the body holds a block `x0` of 512 rows of the matrix, a tile `x1` of 4096 rows of the (padded)
  table, and the matching 4096 entries `x2`, `x3` of the (padded) scale and shift, each of these two laid out as one
  row.  It forms the 512 × 4096 products of rows (a contraction of the two operands' second axes), scales, shifts and
  cuts them below at zero, multiplies the result with the tile again (a plain matrix product) and adds that to what
  the accumulator held.  Changes of float format are the identity on the extended reals, and a matrix product into
  a zero accumulator is the plain sum of products, so at entry `(p, d)` the new accumulator is the old one plus
  `Cert.Spec.out x0 x1 x2 x3 p d`: the formula of the whole computation, applied to the point's pieces.
-/
import proofs.«161482_j30485677867316_1_alg».proof.Proof.Gen.KernelIdeal.Skeleton
import proofs.«161482_j30485677867316_1_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- A one-row block `[1, 4096]` as a function of the lane. -/
def lane (x : Vec Ideal S1x4096 .f32) : Fin 4096 → EReal := fun u => x (ix2 (0 : Fin 1) u)

/-! ## The two matrix products at an entry -/

theorem scores_lhs0 (i : S512x4096.Idx) (q : dot_S512x128_S4096x128_S512x4096_1_1_0_0_n_n.contr.Idx) :
    (dot_S512x128_S4096x128_S512x4096_1_1_0_0_n_n.lhsIdx i q 0).val = (i 0).val := by
  unfold DotDims.lhsIdx
  rw [dif_neg (show ¬(0 : Fin S512x128.rank) ∈ dot_S512x128_S4096x128_S512x4096_1_1_0_0_n_n.lhsBatch by decide),
    dif_pos (show (0 : Fin S512x128.rank) ∈ dot_S512x128_S4096x128_S512x4096_1_1_0_0_n_n.lhsNonContracting by decide)]
  rfl

theorem scores_rhs0 (i : S512x4096.Idx) (q : dot_S512x128_S4096x128_S512x4096_1_1_0_0_n_n.contr.Idx) :
    (dot_S512x128_S4096x128_S512x4096_1_1_0_0_n_n.rhsIdx i q 0).val = (i 1).val := by
  unfold DotDims.rhsIdx
  rw [dif_neg (show ¬(0 : Fin S4096x128.rank) ∈ dot_S512x128_S4096x128_S512x4096_1_1_0_0_n_n.rhsBatch by decide),
    dif_pos (show (0 : Fin S4096x128.rank) ∈ dot_S512x128_S4096x128_S512x4096_1_1_0_0_n_n.rhsNonContracting by decide)]
  rfl

/-- The first product: rows of the block against rows of the tile, both contracted along their second axis. -/
theorem scores_apply (l : FVec Ideal S512x128 .bf16) (r : FVec Ideal S4096x128 .bf16) (p : Fin 512) (u : Fin 4096) :
    matmul dot_S512x128_S4096x128_S512x4096_1_1_0_0_n_n none l r (constant (F := Ideal) S512x4096 .f32 0x00000000#32) (ix2 p u)
      = ∑ k : Fin 128, l (ix2 p k) * r (ix2 u k) := by
  simp only [matmul]
  rw [Ideal.matmul_constant_zero_apply,
    ← Equiv.sum_comp (contrEquiv1 dot_S512x128_S4096x128_S512x4096_1_1_0_0_n_n 128 rfl rfl).symm]
  refine Finset.sum_congr rfl fun k _ => ?_
  have hk := contrEquiv1_symm_val dot_S512x128_S4096x128_S512x4096_1_1_0_0_n_n 128 rfl rfl k
  have el : dot_S512x128_S4096x128_S512x4096_1_1_0_0_n_n.lhsIdx (ix2 p u)
      ((contrEquiv1 dot_S512x128_S4096x128_S512x4096_1_1_0_0_n_n 128 rfl rfl).symm k) = ix2 p k :=
    funext fun a => Fin.ext (by
      match a with
      | ⟨0, _⟩ => exact scores_lhs0 _ _
      | ⟨1, _⟩ => exact (dot_S512x128_S4096x128_S512x4096_1_1_0_0_n_n.lhsIdx_val_of_single rfl _ _).trans hk)
  have er : dot_S512x128_S4096x128_S512x4096_1_1_0_0_n_n.rhsIdx (ix2 p u)
      ((contrEquiv1 dot_S512x128_S4096x128_S512x4096_1_1_0_0_n_n 128 rfl rfl).symm k) = ix2 u k :=
    funext fun a => Fin.ext (by
      match a with
      | ⟨0, _⟩ => exact scores_rhs0 _ _
      | ⟨1, _⟩ => exact (dot_S512x128_S4096x128_S512x4096_1_1_0_0_n_n.rhsIdx_val_of_single rfl _ _).trans hk)
  rw [el, er]

theorem mix_lhs0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl

theorem mix_rhs1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- The second product: a plain matrix product of the activations with the tile. -/
theorem mix_apply (l : FVec Ideal S512x4096 .bf16) (r : FVec Ideal S4096x128 .bf16) (p : Fin 512) (d : Fin 128) :
    matmul dot_S512x4096_S4096x128_S512x128_1_0_0_1_n_n none l r (constant (F := Ideal) S512x128 .f32 0x00000000#32) (ix2 p d)
      = ∑ u : Fin 4096, l (ix2 p u) * r (ix2 u d) := by
  simp only [matmul]
  rw [Ideal.matmul_constant_zero_apply,
    ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p d)
      ((contrEquiv1 dot_S512x4096_S4096x128_S512x128_1_0_0_1_n_n 4096 rfl rfl).symm k) = ix2 p k :=
    funext fun a => Fin.ext (by
      match a with
      | ⟨0, _⟩ => exact mix_lhs0 _ _
      | ⟨1, _⟩ => exact (dot_S512x4096_S4096x128_S512x128_1_0_0_1_n_n.lhsIdx_val_of_single rfl _ _).trans hk)
  have er : dot_S512x4096_S4096x128_S512x128_1_0_0_1_n_n.rhsIdx (ix2 p d)
      ((contrEquiv1 dot_S512x4096_S4096x128_S512x128_1_0_0_1_n_n 4096 rfl rfl).symm k) = ix2 k d :=
    funext fun a => Fin.ext (by
      match a with
      | ⟨0, _⟩ => exact (dot_S512x4096_S4096x128_S512x128_1_0_0_1_n_n.rhsIdx_val_of_single rfl _ _).trans hk
      | ⟨1, _⟩ => exact mix_rhs1 _ _)
  rw [el, er]

/-! ## The one-row blocks laid down the rows -/

/-- A one-row block broadcast down 512 rows reads, at `(p, u)`, its lane `u`. -/
theorem row_apply (x : FVec Ideal S1x4096 .f32) (p : Fin 512) (u : Fin 4096) :
    broadcastTo S512x4096 x broadcasts_S1x4096_S512x4096 (ix2 p u) = x (ix2 (0 : Fin 1) u) :=
  broadcastTo_apply x broadcasts_S1x4096_S512x4096 (ix2 p u) (ix2 (0 : Fin 1) u) (fun a => match a with
    | ⟨0, _⟩ => rfl
    | ⟨1, _⟩ => rfl)

/-! ## The payload at an entry -/

/-- What the point's covering store writes into the accumulator, at `(p, d)`: what the accumulator held there plus the
    whole computation's formula applied to the point's pieces. -/
theorem pay_apply (x0 : Vec Ideal S512x128 .f32) (x1 : Vec Ideal S4096x128 .f32) (x2 x3 : Vec Ideal S1x4096 .f32)
    (acc : Vec Ideal S512x128 .f32) (p : Fin 512) (d : Fin 128) :
    k0_pay2 (F := Ideal) x0 x1 x2 x3 acc (ix2 p d)
      = acc (ix2 p d) + Cert.Spec.out (N := 512) (V := 4096) (D := 128) x0 x1 (lane x2) (lane x3) p d := by
  unfold k0_pay2
  simp only [shapeCast_self]
  show acc (ix2 p d) + matmul dot_S512x4096_S4096x128_S512x128_1_0_0_1_n_n none _ _
    (constant (F := Ideal) S512x128 .f32 0x00000000#32) (ix2 p d) = _
  refine congrArg (acc (ix2 p d) + ·) ?_
  refine (mix_apply _ _ p d).trans ?_
  unfold Cert.Spec.out Cert.Spec.term Cert.Spec.act lane
  refine Finset.sum_congr rfl fun u _ => ?_
  refine congrArg (· * x1 (ix2 u d)) ?_
  show max (matmul dot_S512x128_S4096x128_S512x4096_1_1_0_0_n_n none _ _ (constant (F := Ideal) S512x4096 .f32 0x00000000#32) (ix2 p u)
      * broadcastTo S512x4096 x2 broadcasts_S1x4096_S512x4096 (ix2 p u)
      + broadcastTo S512x4096 x3 broadcasts_S1x4096_S512x4096 (ix2 p u)) (Ideal.ofBits .f32 0x00000000#32) = _
  rw [scores_apply, row_apply, row_apply, Ideal.ofBits_zero_f32]
  rfl

end Cert.KernelIdeal.Payload

end
-- ==== Proof.Blocks.lean ====
/-
  Which entries of the arrays a grid point's blocks hold.

  The grid has 8 × 13 points; point number `t` has row-block coordinate `t / 13` and tile coordinate `t % 13`.  The
  matrix's window moves with the row block (512 rows), the table's window and the two one-row windows with the tile
  (4096 table rows, 4096 lanes), and the output's window again with the row block.  An entry of a block sits at
  block index × block size + its coordinate inside the block, on every axis.
-/
import proofs.«161482_j30485677867316_1_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided once over the 104 grid points. -/
theorem idx_facts : ∀ t : Fin cfg0.N,
    win0_0.index t (0 : Fin 2) = t.val / 13 ∧ win0_0.index t (1 : Fin 2) = 0
    ∧ win0_1.index t (0 : Fin 2) = t.val % 13 ∧ win0_1.index t (1 : Fin 2) = 0
    ∧ win0_2.index t (0 : Fin 2) = 0 ∧ win0_2.index t (1 : Fin 2) = t.val % 13
    ∧ win0_3.index t (0 : Fin 2) = 0 ∧ win0_3.index t (1 : Fin 2) = t.val % 13
    ∧ win0_4.index t (0 : Fin 2) = t.val / 13 ∧ win0_4.index t (1 : Fin 2) = 0 :=
  (by decide +kernel : ∀ t : Fin grid0.N, _)

/-- A point's number is below 104. -/
theorem lt_N (t : Fin cfg0.N) : t.val < 104 := lt_of_lt_of_eq t.isLt (show cfg0.N = 104 from N_0)

/-- The matrix's block at point `t`: rows `512 · (t / 13)` onward. -/
theorem iblk0_apply (c : Dev nD) (t : Fin cfg0.N) (p : Fin 512) (k : Fin 128)
    (hr : 512 * (t.val / 13) + p.val < 4096) :
    (iblk m c 0 t : Vec F S512x128 .f32) (ix2 p k)
      = (V m c main_v32 : S4096x128.Idx → F .f32) (ix2 ⟨512 * (t.val / 13) + p.val, hr⟩ k) := by
  obtain ⟨e0, e1, -⟩ := idx_facts t
  unfold iblk
  rw [View.read_apply]
  show V m c main_v32 _ = V m c main_v32 _
  refine congrArg (V m c main_v32) (funext fun a => Fin.ext ?_)
  match a with
  | ⟨0, _⟩ => show win0_0.index t (0 : Fin 2) * 512 + 1 * p.val = 512 * (t.val / 13) + p.val; omega
  | ⟨1, _⟩ => show win0_0.index t (1 : Fin 2) * 128 + 1 * k.val = k.val; omega

/-- The table's tile at point `t`: table rows `4096 · (t % 13)` onward. -/
theorem iblk1_apply (c : Dev nD) (t : Fin cfg0.N) (u : Fin 4096) (k : Fin 128)
    (hr : 4096 * (t.val % 13) + u.val < 53248) :
    (iblk m c 1 t : Vec F S4096x128 .f32) (ix2 u k)
      = (V m c main_v33 : S53248x128.Idx → F .f32) (ix2 ⟨4096 * (t.val % 13) + u.val, hr⟩ k) := by
  obtain ⟨-, -, e0, e1, -⟩ := idx_facts t
  unfold iblk
  rw [View.read_apply]
  show V m c main_v33 _ = V m c main_v33 _
  refine congrArg (V m c main_v33) (funext fun a => Fin.ext ?_)
  match a with
  | ⟨0, _⟩ => show win0_1.index t (0 : Fin 2) * 4096 + 1 * u.val = 4096 * (t.val % 13) + u.val; omega
  | ⟨1, _⟩ => show win0_1.index t (1 : Fin 2) * 128 + 1 * k.val = k.val; omega

/-- The scale's one-row block at point `t`: lanes `4096 · (t % 13)` onward. -/
theorem iblk2_apply (c : Dev nD) (t : Fin cfg0.N) (u : Fin 4096)
    (hr : 4096 * (t.val % 13) + u.val < 53248) :
    (iblk m c 2 t : Vec F S1x4096 .f32) (ix2 (0 : Fin 1) u)
      = (V m c main_v35 : S1x53248.Idx → F .f32) (ix2 (0 : Fin 1) ⟨4096 * (t.val % 13) + u.val, hr⟩) := by
  obtain ⟨-, -, -, -, e0, e1, -⟩ := idx_facts t
  unfold iblk
  rw [View.read_apply]
  show V m c main_v35 _ = V m c main_v35 _
  refine congrArg (V m c main_v35) (funext fun a => Fin.ext ?_)
  match a with
  | ⟨0, _⟩ => show win0_2.index t (0 : Fin 2) * 1 + 1 * 0 = 0; omega
  | ⟨1, _⟩ => show win0_2.index t (1 : Fin 2) * 4096 + 1 * u.val = 4096 * (t.val % 13) + u.val; omega

/-- The shift's one-row block at point `t`: lanes `4096 · (t % 13)` onward. -/
theorem iblk3_apply (c : Dev nD) (t : Fin cfg0.N) (u : Fin 4096)
    (hr : 4096 * (t.val % 13) + u.val < 53248) :
    (iblk m c 3 t : Vec F S1x4096 .f32) (ix2 (0 : Fin 1) u)
      = (V m c main_v37 : S1x53248.Idx → F .f32) (ix2 (0 : Fin 1) ⟨4096 * (t.val % 13) + u.val, hr⟩) := by
  obtain ⟨-, -, -, -, -, -, e0, e1, -⟩ := idx_facts t
  unfold iblk
  rw [View.read_apply]
  show V m c main_v37 _ = V m c main_v37 _
  refine congrArg (V m c main_v37) (funext fun a => Fin.ext ?_)
  match a with
  | ⟨0, _⟩ => show win0_3.index t (0 : Fin 2) * 1 + 1 * 0 = 0; omega
  | ⟨1, _⟩ => show win0_3.index t (1 : Fin 2) * 4096 + 1 * u.val = 4096 * (t.val % 13) + u.val; omega

end Cert.KernelIdeal.Blocks

end
-- ==== Proof.Pieces.lean ====
/-
  What one run of the body leaves in the accumulator and in the output block, in each of its three cases, as a
  value: at any float instance.

  The body always loads its four input blocks and the accumulator, and stores into the accumulator, whole, the
  payload `k0_pay2` of those five loads.  At a row block's first tile it first stores the zero block `k0_pay1` into the
  accumulator, so that the load reads zeros back (case A); at the last tile it afterwards copies the accumulator,
  whole, into the output block (case C); in between it does neither (case B).  Every load and store is through the
  whole buffer, so a load reads the buffer's contents and the last store leaves its payload.
-/
import proofs.«161482_j30485677867316_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Case B (a middle tile): the accumulator, holding `xs0`, ends at the payload of the four blocks and `xs0`. -/
theorem scratch_B (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : ¬cond0_1 i)
    (x0 : Vec F S512x128 .f32) (x1 : Vec F S4096x128 .f32) (x2 : Vec F S1x4096 .f32) (x3 : Vec F S1x4096 .f32) (xs0 : Vec F S512x128 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg4.read_unread, harg5.read_unread,
    harg7.read_unread, View.ld_unit_zero (S := S512x128) hz, View.ld_unit_zero (S := S4096x128) hz,
    View.ld_unit_zero (S := S1x4096) hz]

/-- Case C (the last tile): the accumulator ends as in case B, -/
theorem scratch_C (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x128 .f32) (x1 : Vec F S4096x128 .f32) (x2 : Vec F S1x4096 .f32) (x3 : Vec F S1x4096 .f32) (xs0 : Vec F S512x128 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread,
    harg7.read_unread, View.ld_unit_zero (S := S512x128) hz, View.ld_unit_zero (S := S4096x128) hz,
    View.ld_unit_zero (S := S1x4096) hz]

/-- and the output block ends at the same value: the accumulator read back after its store. -/
theorem out_C (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x128 .f32) (x1 : Vec F S4096x128 .f32) (x2 : Vec F S1x4096 .f32) (x3 : Vec F S1x4096 .f32) (xs0 : Vec F S512x128 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S512x128) _ hz]
  simp only [View.readAt_eq_ld, harg2.read_unread, harg3.read_unread, harg4.read_unread, harg5.read_unread,
    harg7.read_unread, View.ld_unit_zero (S := S512x128) hz, View.ld_unit_zero (S := S4096x128) hz,
    View.ld_unit_zero (S := S1x4096) hz]

/-- Case A (a row block's first tile): the accumulator ends at the payload of the four blocks and the zero block. -/
theorem scratch_A (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S512x128 .f32) (harg6 : arg6.IsWhole) (arg7 : Memref sig .tc .vmem S512x128 .f32) (harg7 : arg7.IsWhole) (hc0 : cond0_0 i) (hc1 : ¬cond0_1 i)
    (x0 : Vec F S512x128 .f32) (x1 : Vec F S4096x128 .f32) (x2 : Vec F S1x4096 .f32) (x3 : Vec F S1x4096 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x128) hz, View.readCov_unit_zero (S := S512x128) _ hz]
  simp only [View.readAt_eq_ld, harg2.read_unread, harg3.read_unread, harg4.read_unread, harg5.read_unread,
    View.ld_unit_zero (S := S512x128) hz, View.ld_unit_zero (S := S4096x128) hz,
    View.ld_unit_zero (S := S1x4096) hz]

end Cert.KernelIdeal.Pieces

end
-- ==== Proof.Accum.lean ====
/-
  The accumulator after every grid point, and the output block at a row block's last tile.

  Write `A` for the matrix, `E'`, `s'`, `b'` for the padded table, scale and shift as the region finds them, and number
  the contributions of the padded table's rows `x = 0, 1, …` to the result at a fixed entry (`Cert.Spec.termN`).  After
  point `t` — row block `t / 13`, tile `t % 13` — the accumulator holds, at `(p, d)`, the sum of the contributions numbered
  below `4096 · (t % 13 + 1)` to the entry `(512 · (t / 13) + p, d)`: at a first tile the accumulator is reset to zero
  and the tile's 4096 contributions are added to it, at every other tile they are added to what the tile before
  left, which belongs to the same row block.  This is an induction on the point.  At a last tile the output block is
  a copy of the accumulator, so it holds the sum of all `53248` contributions.
-/
import proofs.«161482_j30485677867316_1_alg».proof.Proof.Gen.KernelIdeal.Frame
import proofs.«161482_j30485677867316_1_alg».proof.Proof.Spec
import proofs.«161482_j30485677867316_1_alg».proof.Proof.Payload
import proofs.«161482_j30485677867316_1_alg».proof.Proof.Blocks
import proofs.«161482_j30485677867316_1_alg».proof.Proof.Pieces

noncomputable section

namespace Cert.KernelIdeal.Accum

open Cert.KernelIdeal Cert.KernelIdeal.Gen Idealize.ShloMosaic Idealize.ShloMosaic.TcCoe Idealize.SL.Sem
open Idealize.ShloMosaic.ValueIdx Cert.KernelIdeal.Blocks Cert.KernelIdeal.Payload

variable (m : (ℓ : Loc nD τ sig) → Buf (Elt Ideal) ℓ)

/-! ## The four arrays the region reads, as it finds them -/

/-- The matrix (the host operations' result, 4096 × 128). -/
def aggr (c : Dev nD) : S4096x128.Idx → EReal := V m c main_v32
/-- The table padded to 53248 rows. -/
def table (c : Dev nD) : S53248x128.Idx → EReal := V m c main_v33
/-- The padded scale, by lane. -/
def scale (c : Dev nD) : Fin 53248 → EReal := fun v => (V m c main_v35 : S1x53248.Idx → EReal) (ix2 (0 : Fin 1) v)
/-- The padded shift, by lane. -/
def shift (c : Dev nD) : Fin 53248 → EReal := fun v => (V m c main_v37 : S1x53248.Idx → EReal) (ix2 (0 : Fin 1) v)

/-- The numbered contribution `x` to the entry `(row, d)`, from those four arrays. -/
abbrev contrib (c : Dev nD) (row : Fin 4096) (d : Fin 128) (x : ℕ) : EReal :=
  Cert.Spec.termN (N := 4096) (V := 53248) (D := 128) (aggr m c) (table m c) (scale m c) (shift m c) row d x

/-! ## One point's tile -/

/-- The formula applied to point `t`'s blocks is the sum of the 4096 contributions of its tile to its rows. -/
theorem tile (c : Dev nD) (t : Fin cfg0.N) (p : Fin 512) (d : Fin 128) (hrow : 512 * (t.val / 13) + p.val < 4096) :
    Cert.Spec.out (N := 512) (V := 4096) (D := 128) (iblk m c 0 t) (iblk m c 1 t) (lane (iblk m c 2 t)) (lane (iblk m c 3 t)) p d
      = ∑ x ∈ Finset.range 4096, contrib m c ⟨512 * (t.val / 13) + p.val, hrow⟩ d (4096 * (t.val % 13) + x) := by
  have hN := lt_N t
  exact Cert.Spec.out_block (N := 4096) (V := 53248) (D := 128) (P := 512) (T := 4096)
    (aggr m c) (table m c) (scale m c) (shift m c)
    (iblk m c 0 t) (iblk m c 1 t) (lane (iblk m c 2 t)) (lane (iblk m c 3 t))
    (512 * (t.val / 13)) (4096 * (t.val % 13)) (by omega) (by omega)
    (fun p k => iblk0_apply m c t p k _) (fun u k => iblk1_apply m c t u k _)
    (fun u => iblk2_apply m c t u _) (fun u => iblk3_apply m c t u _) p d

/-! ## What each case leaves, over the point's blocks -/

theorem step_A (c : Dev nD) (t : Fin cfg0.N) (h0 : t.val % 13 = 0) (h1 : ¬t.val % 13 = 12) :
    (outsAt0 m c t.val t.isLt).2 = k0_pay2 (iblk m c 0 t) (iblk m c 1 t) (iblk m c 2 t) (iblk m c 3 t) (k0_pay1 (F := Ideal)) := by
  rw [outsAt0_A m c t h0 h1]
  exact Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem step_B (c : Dev nD) (t : Fin cfg0.N) (h0 : ¬t.val % 13 = 0) (h1 : ¬t.val % 13 = 12) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  rw [outsAt0_B m c t h0 h1]
  exact Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem step_C (c : Dev nD) (t : Fin cfg0.N) (h0 : ¬t.val % 13 = 0) (h1 : t.val % 13 = 12) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem step_C_out (c : Dev nD) (t : Fin cfg0.N) (h0 : ¬t.val % 13 = 0) (h1 : t.val % 13 = 12) :
    (outsAt0 m c t.val t.isLt).1 = k0_pay2 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- At a last tile the output block is the accumulator. -/
theorem out_eq_scratch (c : Dev nD) (t : Fin cfg0.N) (h1 : t.val % 13 = 12) :
    (outsAt0 m c t.val t.isLt).1 = (outsAt0 m c t.val t.isLt).2 :=
  (step_C_out m c t (by omega) h1).trans (step_C m c t (by omega) h1).symm

/-- The zero block reads zero. -/
theorem zero_apply (j : S512x128.Idx) : k0_pay1 (F := Ideal) j = 0 := by
  unfold k0_pay1
  rw [shapeCast_self]
  exact Ideal.ofBits_zero_f32

/-! ## The accumulator after every point -/

/-- After point `n` the accumulator holds, at `(p, d)`, the first `4096 · (n % 13 + 1)` contributions to the entry
    `(512 · (n / 13) + p, d)`. -/
theorem scratch_eq (c : Dev nD) : ∀ (n : ℕ) (h : n < cfg0.N) (p : Fin 512) (d : Fin 128) (row : Fin 4096)
    (_ : row.val = 512 * (n / 13) + p.val) (M : ℕ) (_ : M = 4096 * (n % 13 + 1)),
    (outsAt0 m c n h).2 (ix2 p d) = ∑ x ∈ Finset.range M, contrib m c row d x := by
  intro n
  induction n using Nat.strong_induction_on with
  | _ n ih =>
    intro h p d
    have hN : n < 104 := lt_of_lt_of_eq h (show cfg0.N = 104 from N_0)
    have hp : p.val < 512 := p.isLt
    have hlt : 512 * (n / 13) + p.val < 4096 := by omega
    intro row hrow M hM
    obtain rfl : row = ⟨512 * (n / 13) + p.val, hlt⟩ := Fin.ext hrow
    obtain rfl : M = 4096 * (n % 13) + 4096 := by omega
    rw [Finset.sum_range_add]
    by_cases h0 : n % 13 = 0
    · have h1 : ¬n % 13 = 12 := by omega
      refine (congrFun (step_A m c ⟨n, h⟩ h0 h1) (ix2 p d)).trans ?_
      refine (pay_apply (iblk m c 0 ⟨n, h⟩) (iblk m c 1 ⟨n, h⟩) (iblk m c 2 ⟨n, h⟩) (iblk m c 3 ⟨n, h⟩) (k0_pay1 (F := Ideal)) p d).trans ?_
      refine congr (congrArg HAdd.hAdd ?_) (tile m c ⟨n, h⟩ p d hlt)
      rw [zero_apply, h0]
      exact (Finset.sum_range_zero _).symm
    · have ihn := ih (n - 1) (by omega) (by omega) p d ⟨512 * (n / 13) + p.val, hlt⟩
        (by show 512 * (n / 13) + p.val = 512 * ((n - 1) / 13) + p.val; omega) (4096 * (n % 13)) (by omega)
      by_cases h1 : n % 13 = 12
      · refine (congrFun (step_C m c ⟨n, h⟩ h0 h1) (ix2 p d)).trans ?_
        refine (pay_apply (iblk m c 0 ⟨n, h⟩) (iblk m c 1 ⟨n, h⟩) (iblk m c 2 ⟨n, h⟩) (iblk m c 3 ⟨n, h⟩) _ p d).trans ?_
        exact congr (congrArg HAdd.hAdd ihn) (tile m c ⟨n, h⟩ p d hlt)
      · refine (congrFun (step_B m c ⟨n, h⟩ h0 h1) (ix2 p d)).trans ?_
        refine (pay_apply (iblk m c 0 ⟨n, h⟩) (iblk m c 1 ⟨n, h⟩) (iblk m c 2 ⟨n, h⟩) (iblk m c 3 ⟨n, h⟩) _ p d).trans ?_
        exact congr (congrArg HAdd.hAdd ihn) (tile m c ⟨n, h⟩ p d hlt)

/-- At a last tile the output block holds, at `(p, d)`, all 53248 contributions to its entry. -/
theorem out_block_eq (c : Dev nD) (t : Fin cfg0.N) (h1 : t.val % 13 = 12) (p : Fin 512) (d : Fin 128)
    (hrow : 512 * (t.val / 13) + p.val < 4096) :
    (outsAt0 m c t.val t.isLt).1 (ix2 p d) = ∑ x ∈ Finset.range 53248, contrib m c ⟨512 * (t.val / 13) + p.val, hrow⟩ d x :=
  (congrFun (out_eq_scratch m c t h1) (ix2 p d)).trans
    (scratch_eq m c t.val t.isLt p d ⟨512 * (t.val / 13) + p.val, hrow⟩ rfl 53248 (by omega))

end Cert.KernelIdeal.Accum

end
-- ==== Proof.HostArrays.lean ====
/-
  The arrays the region reads, in terms of the program's arguments.

  Before the region the host computes the matrix `A` from the first five arguments (a gather, a scatter-add and
  pointwise arithmetic: the same operations, in the same order, as the reference's first 41 — so `A` is the
  reference's own term for that stage), pads the table with 3248 zero rows, and pads the scale and the shift with
  3248 zeros each and lays them out as one row.  The padding value is the integer zero converted to a float: the
  extended real `0`.  So a padded array read at an index is the argument there if the index is below 50000, and `0`
  otherwise.
-/
import proofs.«161482_j30485677867316_1_alg».proof.Proof.Gen.KernelIdeal.Frame
import proofs.«161482_j30485677867316_1_alg».proof.Proof.Gen.ReferenceIdeal.Read
import proofs.«161482_j30485677867316_1_alg».proof.Proof.Accum
import Idealize.ShloMosaic.Lib.Pipeline.Value
import Idealize.ShloMosaic.Lib.StableHlo.Run
import Idealize.ShloMosaic.Lib.KernelVsHost
import Idealize.ShloMosaic.Lib.Tactic

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The host operations' terms -/

/-- The padding value the three `pad`s use: the integer zero, converted. -/
abbrev padv : S_.Idx → Ideal .f32 := sitofp .f32 (constantI S_ 32 0#32)

theorem padv_apply (i : S_.Idx) : padv i = 0 := sitofp_zero

theorem V_table (c : Dev nD) : (V m c main_v33 : S53248x128.Idx → Ideal .f32)
    = pad S53248x128 ![0, 0] ![3248, 0] ![0, 0] (m ((c : Thread nD τ).loc main_arg5)) padv
        pads_S50000x128_S53248x128_032480_000 h_S_ := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

theorem V_scale (c : Dev nD) : (V m c main_v35 : S1x53248.Idx → Ideal .f32)
    = shapeCast S1x53248 (pad S53248 ![0] ![3248] ![0] (m ((c : Thread nD τ).loc main_arg6)) padv
        pads_S50000_S53248_032480 h_S_) shapeCasts_S53248_S1x53248 := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

theorem V_shift (c : Dev nD) : (V m c main_v37 : S1x53248.Idx → Ideal .f32)
    = shapeCast S1x53248 (pad S53248 ![0] ![3248] ![0] (m ((c : Thread nD τ).loc main_arg7)) padv
        pads_S50000_S53248_032480 h_S_) shapeCasts_S53248_S1x53248 := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

set_option maxRecDepth 8192 in
set_option maxHeartbeats 4000000 in
/-- The matrix is the reference's term for the same stage, of the same five arguments. -/
theorem V_aggr (c : Dev nD) : (V m c main_v32 : S4096x128.Idx → Ideal .f32)
    = Cert.ReferenceIdeal.Read.val_main_v32 (F := Ideal) (m ((c : Thread nD τ).loc main_arg0))
        (m ((c : Thread nD τ).loc main_arg1)) (m ((c : Thread nD τ).loc main_arg2))
        (m ((c : Thread nD τ).loc main_arg3)) (m ((c : Thread nD τ).loc main_arg4)) := by
  dsimp only [Gen.V]
  simp only [hostOps0, hostOps0_1, hostOps0_2, hostOps0_3, hostOps0_4, hostOps0_5, hostOps0_6, List.flatten_cons, List.flatten_nil,
    List.append_nil, List.cons_append, List.nil_append]
  after_results_simp <;> rfl

/-! ## The padded arrays at an index -/

/-- A vector padded with 3248 zeros, read at lane `v`. -/
theorem pad1_apply (x : S50000.Idx → Ideal .f32) (v : Fin 53248) :
    pad S53248 ![0] ![3248] ![0] x padv pads_S50000_S53248_032480 h_S_ (ix1 v)
      = (if h : v.val < 50000 then x (ix1 ⟨v.val, h⟩) else 0 : EReal) := by
  by_cases h : v.val < 50000
  · rw [dif_pos h]
    exact pad_apply_of_inside _ _ _ x padv pads_S50000_S53248_032480 h_S_ (ix1 v) (ix1 ⟨v.val, h⟩)
      (fun a => match a with
        | ⟨0, _⟩ => by show v.val = 0 + v.val * (0 + 1); omega)
  · rw [dif_neg h]
    refine (pad_apply_of_not_inside _ _ _ x padv pads_S50000_S53248_032480 h_S_ (ix1 v) (0 : Fin 1) ?_).trans
      (padv_apply _)
    show ¬(0 ≤ v.val ∧ (v.val - 0) % (0 + 1) = 0 ∧ (v.val - 0) / (0 + 1) < 50000)
    simp only [Nat.zero_add, Nat.sub_zero, Nat.div_one, Nat.mod_one]
    omega

/-- The one-row layout of a 53248-vector, read at lane `v`. -/
theorem row_apply (y : S53248.Idx → Ideal .f32) (v : Fin 53248) :
    shapeCast S1x53248 y shapeCasts_S53248_S1x53248 (ix2 (0 : Fin 1) v) = y (ix1 v) :=
  shapeCast_apply y shapeCasts_S53248_S1x53248 (ix2 (0 : Fin 1) v) (ix1 v)
    (by rw [Shape.rowMajor_val_two, Shape.rowMajor_val_one]; show v.val = 0 * 53248 + v.val; omega)

theorem table_apply (c : Dev nD) (v : Fin 53248) (k : Fin 128) :
    Accum.table m c (ix2 v k)
      = (if h : v.val < 50000 then (m ((c : Thread nD τ).loc main_arg5) : S50000x128.Idx → EReal) (ix2 ⟨v.val, h⟩ k) else 0 : EReal) := by
  unfold Accum.table
  rw [V_table]
  by_cases h : v.val < 50000
  · rw [dif_pos h]
    exact pad_apply_of_inside _ _ _ (m ((c : Thread nD τ).loc main_arg5)) padv pads_S50000x128_S53248x128_032480_000 h_S_
      (ix2 v k) (ix2 ⟨v.val, h⟩ k)
      (fun a => match a with
        | ⟨0, _⟩ => by show v.val = 0 + v.val * (0 + 1); omega
        | ⟨1, _⟩ => by show k.val = 0 + k.val * (0 + 1); omega)
  · rw [dif_neg h]
    refine (pad_apply_of_not_inside _ _ _ (m ((c : Thread nD τ).loc main_arg5)) padv pads_S50000x128_S53248x128_032480_000 h_S_
      (ix2 v k) (0 : Fin 2) ?_).trans (padv_apply _)
    show ¬(0 ≤ v.val ∧ (v.val - 0) % (0 + 1) = 0 ∧ (v.val - 0) / (0 + 1) < 50000)
    simp only [Nat.zero_add, Nat.sub_zero, Nat.div_one, Nat.mod_one]
    omega

theorem scale_apply (c : Dev nD) (v : Fin 53248) :
    Accum.scale m c v
      = (if h : v.val < 50000 then (m ((c : Thread nD τ).loc main_arg6) : S50000.Idx → EReal) (ix1 ⟨v.val, h⟩) else 0 : EReal) := by
  unfold Accum.scale
  rw [V_scale, row_apply, pad1_apply]

theorem shift_apply (c : Dev nD) (v : Fin 53248) :
    Accum.shift m c v
      = (if h : v.val < 50000 then (m ((c : Thread nD τ).loc main_arg7) : S50000.Idx → EReal) (ix1 ⟨v.val, h⟩) else 0 : EReal) := by
  unfold Accum.shift
  rw [V_shift, row_apply, pad1_apply]

end Cert.KernelIdeal.HostArrays

end
-- ==== Proof.Final.lean ====
/-
  The result array after the run.

  The output's window moves with the row block, and its block is written back only after a row block's last tile.
  What is written back then is the output block, which holds at `(p, d)` all 53248 numbered contributions to the
  entry `(512 · (t / 13) + p, d)` — that is, the block of the one array `total` whose entry `(n, d)` is the sum of all
  contributions to `(n, d)`.  The eight written blocks tile the 4096 rows, so the array ends at `total`.  Since the
  padded rows contribute zero, `total` is the whole computation's formula of the matrix and the unpadded table, scale
  and shift.
-/
import proofs.«161482_j30485677867316_1_alg».proof.Proof.Gen.KernelIdeal.Value
import proofs.«161482_j30485677867316_1_alg».proof.Proof.Accum
import proofs.«161482_j30485677867316_1_alg».proof.Proof.HostArrays

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Blocks Cert.KernelIdeal.Accum

variable (m : (ℓ : Loc nD τ sig) → Buf (Elt Ideal) ℓ) (ρ : Dev nD → PrngReg)

/-- The array whose entry `(n, d)` is the sum of all 53248 numbered contributions to it. -/
def total (c : Dev nD) : S4096x128.Idx → EReal := fun i =>
  ∑ x ∈ Finset.range 53248, contrib m c ⟨(i 0).val, idx2_lt0 i⟩ ⟨(i 1).val, idx2_lt1 i⟩ x

/-- What a row block's last tile writes back is that row block of `total`. -/
theorem flushed_eq (c : Dev nD) (t : Fin cfg0.N) (hf : (cfg0.win 4).flush t = true) :
    (dats m 0 c).flushed 4 t = ((cfg0.win 4).blk t).view.read (Elt Ideal) (total m c) := by
  have h1 : t.val % 13 = 12 := (flush0_4 t).mp hf
  have hN := lt_N t
  obtain ⟨-, -, -, -, -, -, -, -, e0, e1⟩ := idx_facts t
  rw [Cert.KernelIdeal.Value.flushed4]
  funext j
  have hj0 : (j 0).val < 512 := (j 0).isLt
  have hj1 : (j 1).val < 128 := (j 1).isLt
  have hrow : 512 * (t.val / 13) + (j 0).val < 4096 := by omega
  -- the block's entry `j`, by coordinates
  have hx : (cfg0.win 4).xinj (grid0.coords t) j = ix2 (⟨(j 0).val, hj0⟩ : Fin 512) (⟨(j 1).val, hj1⟩ : Fin 128) :=
    funext fun a => Fin.ext (by match a with | ⟨0, _⟩ => rfl | ⟨1, _⟩ => rfl)
  -- the output block there is `total` at any array entry with the matching coordinates
  have key : ∀ i : S4096x128.Idx, (i 0).val = 512 * (t.val / 13) + (j 0).val → (i 1).val = (j 1).val →
      (outsAt0 m c t.val t.isLt).1 ((cfg0.win 4).xinj (grid0.coords t) j) = total m c i := by
    intro i hi0 hi1
    rw [hx]
    refine (out_block_eq m c t h1 ⟨(j 0).val, hj0⟩ ⟨(j 1).val, hj1⟩ hrow).trans ?_
    unfold total
    have q0 : (⟨512 * (t.val / 13) + (j 0).val, hrow⟩ : Fin 4096) = ⟨(i 0).val, idx2_lt0 i⟩ := Fin.ext hi0.symm
    have q1 : (⟨(j 1).val, hj1⟩ : Fin 128) = ⟨(i 1).val, idx2_lt1 i⟩ := Fin.ext hi1.symm
    rw [q0, q1]
  rw [View.read_apply]
  generalize total m c = G at key ⊢
  exact key _ (by show win0_4.index t (0 : Fin 2) * 512 + 1 * (j 0).val = _; omega)
    (by show win0_4.index t (1 : Fin 2) * 128 + 1 * (j 1).val = _; omega)

/-- An entry of the array is in point `t`'s block iff each coordinate is in the block's range on its axis. -/
theorem mem_blk (t : Fin cfg0.N) (i : S4096x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v38).slice (win0_4.rect t)).set ↔ _
  rw [View.set_slice_whole, Rect.mem_set_unit]
  exact Iff.rfl

/-- Every entry is in the block some last tile writes back: row `n` in that of row block `n / 512`. -/
theorem cover (i : S4096x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have hlt : 13 * ((i 0).val / 512) + 12 < 104 := by omega
  refine ⟨⟨13 * ((i 0).val / 512) + 12, lt_of_lt_of_eq hlt (show cfg0.N = 104 from N_0).symm⟩, ?_, ?_⟩
  · exact (flush0_4 _).mpr (by show (13 * ((i 0).val / 512) + 12) % 13 = 12; omega)
  · rw [mem_blk]
    obtain ⟨-, -, -, -, -, -, -, -, e0, e1⟩ :=
      idx_facts ⟨13 * ((i 0).val / 512) + 12, lt_of_lt_of_eq hlt (show cfg0.N = 104 from N_0).symm⟩
    have e0' : win0_4.index ⟨13 * ((i 0).val / 512) + 12, lt_of_lt_of_eq hlt (show cfg0.N = 104 from N_0).symm⟩ (0 : Fin 2)
        = (13 * ((i 0).val / 512) + 12) / 13 := e0
    intro a
    match a with
    | ⟨0, _⟩ =>
      show win0_4.index _ (0 : Fin 2) * 512 ≤ (i 0).val ∧ (i 0).val < win0_4.index _ (0 : Fin 2) * 512 + 512
      rw [e0']; omega
    | ⟨1, _⟩ =>
      show win0_4.index _ (1 : Fin 2) * 128 ≤ (i 1).val ∧ (i 1).val < win0_4.index _ (1 : Fin 2) * 128 + 128
      rw [e1]; omega

/-- So the result array ends at `total`. -/
theorem final (c : Dev nD) : (dats m 0 c).arrAt 4 cfg0.N = total m c :=
  (dats m 0 c).arrAt_eq_of_cover 4 (total m c) (flushed_eq m c) cover

/-- `total` is the formula of the matrix and the unpadded table, scale and shift: the padded rows add zero. -/
theorem total_eq (c : Dev nD) (i : S4096x128.Idx) :
    total m c i = Cert.Spec.out (N := 4096) (V := 50000) (D := 128) (aggr m c)
      (m ((c : Thread nD τ).loc main_arg5))
      (fun v => (m ((c : Thread nD τ).loc main_arg6) : S50000.Idx → EReal) (ix1 v))
      (fun v => (m ((c : Thread nD τ).loc main_arg7) : S50000.Idx → EReal) (ix1 v))
      ⟨(i 0).val, idx2_lt0 i⟩ ⟨(i 1).val, idx2_lt1 i⟩ :=
  Cert.Spec.sum_padded (N := 4096) (V := 50000) (D := 128) (V' := 53248) (by omega) (aggr m c)
    (m ((c : Thread nD τ).loc main_arg5))
    (fun v => (m ((c : Thread nD τ).loc main_arg6) : S50000.Idx → EReal) (ix1 v))
    (fun v => (m ((c : Thread nD τ).loc main_arg7) : S50000.Idx → EReal) (ix1 v))
    (table m c) (scale m c) (shift m c)
    (fun v k => HostArrays.table_apply m c v k) (fun v => HostArrays.scale_apply m c v)
    (fun v => HostArrays.shift_apply m c v) _ _

/-- The run, read: the result array at `total`, the arguments unchanged. -/
theorem run : θ_run defs (onTc (τ := τ) (main (F := Ideal))) ⟨m, fun _ => 0, ρ⟩ fun r => ∀ c : Dev nD,
      r.2.mem ((c : Thread nD τ).loc main_v38) = total m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Final

end
-- ==== Proof.RefValue.lean ====
/-
  The reference's result, read at an entry, is the formula of `Cert.Spec`.

  The reference forms the matrix `A` from the first five arguments (the stage `val_main_v32`, never opened here),
  multiplies it with the transposed table, scales and shifts the product by the scale and shift laid along every row,
  cuts it below at zero and multiplies it with the table.  At the extended reals both products are plain sums of
  products, so the entry `(n, d)` is `∑ v, max ((∑ k, A(n,k) · e(v,k)) · s(v) + b(v)) 0 · e(v,d)`.
-/
import proofs.«161482_j30485677867316_1_alg».proof.Proof.Gen.ReferenceIdeal.Read
import proofs.«161482_j30485677867316_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result at `(n, d)`. -/
theorem result_apply (x0 : (⟨S4096x128, .f32⟩ : BufTy).Contents (Elt Ideal)) (x1 : (⟨S2x262144, .i32⟩ : BufTy).Contents (Elt Ideal))
    (x2 x3 : (⟨S262144, .i32⟩ : BufTy).Contents (Elt Ideal)) (x4 : (⟨S1000x128, .f32⟩ : BufTy).Contents (Elt Ideal))
    (x5 : (⟨S50000x128, .f32⟩ : BufTy).Contents (Elt Ideal)) (x6 x7 : (⟨S50000, .f32⟩ : BufTy).Contents (Elt Ideal))
    (n : Fin 4096) (d : Fin 128) :
    val_main_v42 (F := Ideal) x0 x1 x2 x3 x4 x5 x6 x7 (ix2 n d)
      = Cert.Spec.out (N := 4096) (V := 50000) (D := 128) (val_main_v32 (F := Ideal) x0 x1 x2 x3 x4) x5
          (fun v => x6 (ix1 v)) (fun v => x7 (ix1 v)) n d := by
  rw [val_main_v42_apply]
  unfold Cert.Spec.out Cert.Spec.term Cert.Spec.act
  refine Finset.sum_congr rfl fun v _ => ?_
  have eL : lidx_main_v42 (ix2 n d) v = ix2 n v :=
    funext fun a => Fin.ext (by match a with | ⟨0, _⟩ => rfl | ⟨1, _⟩ => rfl)
  have eR : ridx_main_v42 (ix2 n d) v = ix2 v d :=
    funext fun a => Fin.ext (by match a with | ⟨0, _⟩ => rfl | ⟨1, _⟩ => rfl)
  rw [eL, eR]
  refine congrArg (· * x5 (ix2 v d)) ?_
  rw [val_main_v41_apply, val_main_v40_apply, val_main_v37_apply, val_main_v34_apply, val_main_v36_apply,
    val_main_v35_apply, val_main_v39_apply, val_main_v38_apply, val_main_call0_v0_apply, val_main_call0_cst_apply]
  generalize val_main_v32 (F := Ideal) x0 x1 x2 x3 x4 = A
  simp only [val_main_v33_apply]
  have e1 : ∀ k : Fin 128, lidx_main_v34 (ix2 n v) k = ix2 n k := fun k =>
    funext fun a => Fin.ext (by match a with | ⟨0, _⟩ => rfl | ⟨1, _⟩ => rfl)
  have e2 : ∀ k : Fin 128, idx_main_v33 (ridx_main_v34 (ix2 n v) k) = ix2 v k := fun k =>
    funext fun a => Fin.ext (by match a with | ⟨0, _⟩ => rfl | ⟨1, _⟩ => rfl)
  have e3 : idx_main_v35 (idx_main_v36 (ix2 n v)) = ix1 v :=
    funext fun a => Fin.ext (by match a with | ⟨0, _⟩ => rfl)
  have e4 : idx_main_v38 (idx_main_v39 (ix2 n v)) = ix1 v :=
    funext fun a => Fin.ext (by match a with | ⟨0, _⟩ => rfl)
  simp only [e1, e2, e3, e4]
  show max ((∑ k : Fin 128, A (ix2 n k) * x5 (ix2 v k)) * x6 (ix1 v) + x7 (ix1 v)) (Ideal.ofBits .f32 0x00000000#32) = _
  rw [Ideal.ofBits_zero_f32]

end Cert.ReferenceIdeal.RefValue

end
-- ==== Proof.lean ====
/-
  The proof of `Cert.Claim`: the three frames, the (empty) idealization ledger, and the equality of the idealized
  kernel's and the idealized reference's results on the extended reals.

  THE MATHEMATICS.  Both programs first form the same matrix `A` (4096 × 128) from the first five arguments, by the
  same host operations.  With the table `e` (50000 × 128), the scale `s` and the shift `b`, the reference returns

      out(n, d) = ∑ v < 50000, max ((∑ k < 128, A(n,k) · e(v,k)) · s(v) + b(v)) 0 · e(v,d).

  The kernel pads `e`, `s`, `b` with zeros to 53248 = 13 · 4096 entries and walks a grid of 8 row blocks (512 rows)
  by 13 tiles (4096 table rows): at each point it adds the tile's 4096 terms of that sum, for its 512 rows, to an
  accumulator that it resets to zero at a row block's first tile and copies to the result after its last.  The two
  agree because a sum may be cut into consecutive stretches (addition on the extended reals is associative and
  commutative) and because each of the 3248 padded terms is a product with a zero entry of the table: no entry need
  be finite, so the precondition is not used.  The modules:
    Spec        the formula, its cut into tiles, and the padding;
    Payload     one point's arithmetic at an entry (both matrix products as sums);
    Pieces      what each of the body's three cases leaves in the accumulator and the output block;
    Blocks      which entries of the arrays a point's blocks hold;
    Accum       the accumulator after every point, by induction on the point;
    HostArrays  the arrays the region reads in terms of the arguments (the matrix; the zero padding);
    Final       the result array after the run;
    RefValue    the reference's result at an entry.
-/
import proofs.«161482_j30485677867316_1_alg».proof.Defs
import proofs.«161482_j30485677867316_1_alg».proof.Proof.Gen.Kernel
import proofs.«161482_j30485677867316_1_alg».proof.Proof.Gen.Kernel.Frame
import proofs.«161482_j30485677867316_1_alg».proof.Proof.Gen.KernelIdeal
import proofs.«161482_j30485677867316_1_alg».proof.Proof.Gen.KernelIdeal.Frame
import proofs.«161482_j30485677867316_1_alg».proof.Proof.Gen.KernelIdeal.Value
import proofs.«161482_j30485677867316_1_alg».proof.Proof.Gen.ReferenceIdeal
import proofs.«161482_j30485677867316_1_alg».proof.Proof.Gen.ReferenceIdeal.Run
import proofs.«161482_j30485677867316_1_alg».proof.Proof.Gen.ReferenceIdeal.Read
import proofs.«161482_j30485677867316_1_alg».proof.Proof.Gen.Pre_finite_inputs
import proofs.«161482_j30485677867316_1_alg».proof.Proof.Final
import proofs.«161482_j30485677867316_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The ideal pass rewrote nothing. -/
theorem preserves : Cert.preserves_Kernel_KernelIdeal := trivial

/-- Both runs end with the result array at the one formula of the arguments: the kernel's by `Final.run` and
    `Final.total_eq`, the reference's by its generated run and `RefValue.result_apply`; the matrix both feed it is the
    same term (`HostArrays.V_aggr`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.total m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq]
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  funext i
  obtain ⟨n, d, rfl⟩ : ∃ (n : Fin 4096) (d : Fin 128), i = ix2 n d := ⟨i 0, i 1, eq_ix2 i⟩
  rw [Cert.ReferenceIdeal.RefValue.result_apply]
  refine Eq.trans ?_ (Cert.KernelIdeal.Final.total_eq m c (ix2 n d)).symm
  unfold Cert.KernelIdeal.Accum.aggr
  rw [Cert.KernelIdeal.HostArrays.V_aggr]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
